-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S16384x4096 : Shape := ⟨2, ![16384, 4096]⟩
abbrev S1x4096 : Shape := ⟨2, ![1, 4096]⟩
abbrev S512x4096 : Shape := ⟨2, ![512, 4096]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .hbm, ⟨5, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x1x4096, .f32⟩
  | .hbm, ⟨3, _⟩ => ⟨S4x4096x4096, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.RowScale.lean ====
/-
  Scaling the last axis of a rank-3 array by a vector: the one function both programs compute.

  For an array `x` of extents [4, 4096, 4096] and a vector `d` of extent [4096] the result at (b, s, k) is the
  product `x (b, s, k) · d k`.  The same elements can be laid out as 16384 rows of 4096, row `4096·b + s` being the
  old (b, s), with `d` as a single row of 4096: there the result at (r, k) is `X (r, k) · D (0, k)`.  The two
  descriptions agree, because row-major flattening keeps the last coordinate and sends the pair (b, s) to
  `4096·b + s`; that is the only fact proved here.  Nothing depends on what the product is, so `mul` is an arbitrary
  binary operation on an arbitrary type: the statement is about where each entry is read, not about arithmetic.
-/
import Idealize.ShloMosaic.Lib.ValueIdx
import Idealize.ShloMosaic.Lib.ValueLayout
import Idealize.ShloMosaic.Lib.Pipeline.Value

namespace Cert.RowScale

open Idealize.ShloMosaic Idealize.ShloMosaic.ValueIdx

/-- The rank-3 layout: 4 slabs of 4096 rows of 4096 entries. -/
abbrev Cube : Shape := ⟨3, ![4, 4096, 4096]⟩
/-- The scaling vector's layout. -/
abbrev Line : Shape := ⟨1, ![4096]⟩
/-- The flattened layout: all 4 · 4096 rows one after the other. -/
abbrev Rows : Shape := ⟨2, ![16384, 4096]⟩
/-- The scaling vector as a single row. -/
abbrev OneRow : Shape := ⟨2, ![1, 4096]⟩

variable {α : Type} (mul : α → α → α)

/-- Entry (b, s, k) of the cube times entry k of the vector. -/
def cubeScale (x : Cube.Idx → α) (d : Line.Idx → α) : Cube.Idx → α :=
  fun i => mul (x i) (d (ix1 (⟨(i 2).val, (i 2).isLt⟩ : Fin 4096)))

/-- Entry (r, k) of the flattened array times entry (0, k) of the single row. -/
def rowsScale (X : Rows.Idx → α) (D : OneRow.Idx → α) : Rows.Idx → α :=
  fun j => mul (X j) (D (ix2 (0 : Fin 1) (⟨(j 1).val, (j 1).isLt⟩ : Fin 4096)))

/-- The cube's result at coordinates. -/
theorem cubeScale_apply (x : Cube.Idx → α) (d : Line.Idx → α) (b : Fin 4) (s : Fin 4096) (k : Fin 4096) :
    cubeScale mul x d (ix3 b s k) = mul (x (ix3 b s k)) (d (ix1 k)) := rfl

/-- The flattened result at coordinates. -/
theorem rowsScale_apply (X : Rows.Idx → α) (D : OneRow.Idx → α) (r : Fin 16384) (k : Fin 4096) :
    rowsScale mul X D (ix2 r k) = mul (X (ix2 r k)) (D (ix2 (0 : Fin 1) k)) := rfl

/-- Row `4096·b + s` of the flattened array is row (b, s) of the cube: both sit at row-major position
    `(4096·b + s)·4096 + k`. -/
theorem flatten_apply (x : Cube.Idx → α) (h : Cube.ShapeCasts Rows) (b : Fin 4) (s : Fin 4096) (k : Fin 4096)
    (hr : 4096 * b.val + s.val < 16384) :
    shapeCast Rows x h (ix2 (⟨4096 * b.val + s.val, hr⟩ : Fin 16384) k) = x (ix3 b s k) :=
  shapeCast_apply x h _ _ (by
    rw [Shape.rowMajor_val_two, Shape.rowMajor_val_three]
    show (b.val * 4096 + s.val) * 4096 + k.val = (4096 * b.val + s.val) * 4096 + k.val
    omega)

/-- And back: entry (b, s, k) of the cube rebuilt from the flattened array is its entry (4096·b + s, k). -/
theorem unflatten_apply (X : Rows.Idx → α) (h : Rows.ShapeCasts Cube) (b : Fin 4) (s : Fin 4096) (k : Fin 4096)
    (hr : 4096 * b.val + s.val < 16384) :
    shapeCast Cube X h (ix3 b s k) = X (ix2 (⟨4096 * b.val + s.val, hr⟩ : Fin 16384) k) :=
  shapeCast_apply X h _ _ (by
    rw [Shape.rowMajor_val_two, Shape.rowMajor_val_three]
    show (4096 * b.val + s.val) * 4096 + k.val = (b.val * 4096 + s.val) * 4096 + k.val
    omega)

/-- Flatten both arguments, scale row by row, rebuild the cube: that is scaling the cube's last axis. -/
theorem unflatten_rowsScale (x : Cube.Idx → α) (d : Line.Idx → α)
    (hx : Cube.ShapeCasts Rows) (hd : Line.ShapeCasts OneRow) (hy : Rows.ShapeCasts Cube) :
    shapeCast Cube (rowsScale mul (shapeCast Rows x hx) (shapeCast OneRow d hd)) hy = cubeScale mul x d := by
  funext i
  obtain ⟨b, s, k, rfl⟩ : ∃ (b : Fin 4) (s : Fin 4096) (k : Fin 4096), i = ix3 b s k := ⟨i 0, i 1, i 2, eq_ix3 i⟩
  have hr : 4096 * b.val + s.val < 16384 := by omega
  rw [unflatten_apply _ hy b s k hr, rowsScale_apply, flatten_apply x hx b s k hr,
    shapeCast_a_1a_apply d hd (0 : Fin 1) k, cubeScale_apply]

end Cert.RowScale
-- ==== Proof.RefScale.lean ====
/-
  The reference computes the scaled cube.

  The reference broadcasts the vector `d` to the cube's shape in two steps — first to [1, 1, 4096], keeping the
  coordinate k, then to [4, 4096, 4096], reading (0, 0, k) at (b, s, k) — and multiplies entry by entry.  So its
  entry (b, s, k) is `x (b, s, k) · d k`: the two index maps composed send (b, s, k) to k.
-/
import proofs.«128821_j3478923510572_2_alg».proof.Proof.Gen.ReferenceIdeal.Read
import proofs.«128821_j3478923510572_2_alg».proof.Proof.RowScale

noncomputable section

namespace Cert.ReferenceIdeal.Scaled

open Cert.ReferenceIdeal Cert.ReferenceIdeal.Gen Cert.ReferenceIdeal.Read
open Idealize.ShloMosaic Idealize.ShloMosaic.ValueIdx Cert.RowScale

variable {F : FTy → Type} [FloatOps F]

/-- The two broadcasts' index maps, composed, keep the last coordinate only. -/
theorem idx_last (i : S4x4096x4096.Idx) :
    idx_main_v0 (idx_main_v1 i) = ix1 (⟨(i 2).val, (i 2).isLt⟩ : Fin 4096) :=
  funext fun a => match a with | ⟨0, _⟩ => rfl

/-- The reference's product, stage by stage, is the cube scaled along its last axis. -/
theorem stage_eq (x0 : (⟨S4x4096x4096, .f32⟩ : BufTy).Contents (Elt F)) (x1 : (⟨S4096, .f32⟩ : BufTy).Contents (Elt F)) :
    val_main_v2 (F := F) x0 x1 = cubeScale (FloatOps.mulf (F := F) (φ := .f32)) x0 x1 := by
  funext i
  rw [val_main_v2_apply, val_main_v1_apply, val_main_v0_apply, idx_last]
  rfl

end Cert.ReferenceIdeal.Scaled

end
-- ==== Proof.BlockScale.lean ====
/-
  What the kernel's body stores, entry by entry.

  At a grid point the body loads a block of 512 rows of 4096 and the single row of 4096, casts each to its own shape
  (nothing moves), repeats the single row over the 512 rows, multiplies entry by entry and stores the product over
  the whole output block.  So the stored block's entry (r, k) is the loaded block's entry (r, k) times the single
  row's entry (0, k).
-/
import proofs.«128821_j3478923510572_2_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Scaled

open Cert.KernelIdeal Cert.KernelIdeal.Gen
open Idealize.ShloMosaic Idealize.ShloMosaic.ValueIdx

variable {F : FTy → Type} [FloatOps F]

/-- Entry (r, k) of the stored block: the loaded block at (r, k) times the single row at (0, k). -/
theorem pay_apply (v0 : Vec F S512x4096 .f32) (v2 : Vec F S1x4096 .f32) (r : Fin 512) (k : Fin 4096) :
    k0_pay1 v0 v2 (ix2 r k) = FloatOps.mulf (v0 (ix2 r k)) (v2 (ix2 (0 : Fin 1) k)) := by
  unfold k0_pay1
  show FloatOps.mulf (shapeCast S512x4096 v0 shapeCasts_S512x4096_S512x4096 (ix2 r k))
      (broadcastTo S512x4096 (shapeCast S1x4096 v2 shapeCasts_S1x4096_S1x4096) broadcasts_S1x4096_S512x4096 (ix2 r k)) = _
  rw [shapeCast_self, broadcastTo_1b_ab_apply, shapeCast_self]

/-- The same at any index of the block: only the column of the index reaches the single row. -/
theorem pay_at (v0 : Vec F S512x4096 .f32) (v2 : Vec F S1x4096 .f32) (j : S512x4096.Idx) :
    k0_pay1 v0 v2 j = FloatOps.mulf (v0 j) (v2 (ix2 (0 : Fin 1) (⟨(j 1).val, (j 1).isLt⟩ : Fin 4096))) := by
  obtain ⟨r, k, rfl⟩ : ∃ (r : Fin 512) (k : Fin 4096), j = ix2 r k := ⟨j 0, j 1, eq_ix2 j⟩
  exact pay_apply v0 v2 r k

end Cert.KernelIdeal.Scaled

end
-- ==== Proof.RegionArray.lean ====
/-
  The array the region leaves: every row of the flattened input scaled by the single row.

  The grid has 32 points.  At point t the input window and the output window both sit on rows 512·t … 512·t + 511
  of their arrays (block index (t, 0)), and the single-row window always sits on the one row there is (block index
  (0, 0)).  The body stores, at (r, k) of the output block, the input block's (r, k) times the single row's (0, k);
  read through the windows that is entry (512·t + r, k) of the flattened input times entry (0, k) of the single row:
  block t of ONE function of the two arrays.  Every row r of the output belongs to the block of point r / 512, and
  every point writes its block back, so after the run the output array is that function everywhere.
-/
import proofs.«128821_j3478923510572_2_alg».proof.Proof.Gen.KernelIdeal.Frame
import proofs.«128821_j3478923510572_2_alg».proof.Proof.BlockScale
import proofs.«128821_j3478923510572_2_alg».proof.Proof.RowScale
import Idealize.ShloMosaic.Lib.Pipeline.Value

set_option maxRecDepth 16384

noncomputable section

namespace Cert.KernelIdeal.Scaled

open Cert.KernelIdeal Cert.KernelIdeal.Gen Cert.RowScale
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The body's accesses start at the origin of their buffers. -/
theorem origin : (![0, 0] : Fin 2 → Nat) = fun _ => 0 := funext fun a => by fin_cases a <;> rfl

/-- Where the three windows sit at point t: input and output on row block t, column block 0; the single row on
    block (0, 0). -/
theorem blocks_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The flattened array scaled by the single row, of the two arrays as the region finds them. -/
abbrev scaledRows (c : Dev nD) : S16384x4096.Idx → Elt F .f32 :=
  rowsScale (FloatOps.mulf (F := F) (φ := .f32)) (V m c main_v0) (V m c main_v1)

/-- WHAT POINT t WRITES BACK is block t of the scaled rows. -/
theorem flushed_eq (c : Dev nD) (t : Fin cfg0.N) :
    (dats m 0 c).flushed 2 t = ((cfg0.win 2).blk t).view.read (Elt F) (scaledRows m c) := by
  show (cfg0.win 2).cut (grid0.coords t) ((dats m 0 c).after 2 t) = _
  rw [after0_2]
  unfold out0_2
  rw [View.canon_unit_zero origin]
  simp only [View.ld_unit_zero (S := S512x4096) origin, View.ld_unit_zero (S := S1x4096) origin]
  obtain ⟨e00, e01, e10, e11, e20, e21⟩ := blocks_at t
  funext j
  have hj0 : (j 0).val < 512 := (j 0).isLt
  have hj1 : (j 1).val < 4096 := (j 1).isLt
  refine (pay_at (iblk m c 0 t) (iblk m c 1 t) j).trans ?_
  -- the input block is the flattened array read on the output block's rows
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  -- the single row's block is the single row itself, read in the output entry's column
  have h1 : ((cfg0.win 1).blk t).view.emb (ix2 (0 : Fin 1) (⟨(j 1).val, hj1⟩ : Fin 4096))
      = ix2 (0 : Fin 1) (⟨((((cfg0.win 2).blk t).view.emb j) 1).val, ((((cfg0.win 2).blk t).view.emb j) 1).isLt⟩ : Fin 4096) := by
    funext a; apply Fin.ext
    match a with
    | ⟨0, _⟩ => show win0_1.index t (0 : Fin 2) * 1 + 1 * 0 = 0; omega
    | ⟨1, _⟩ => show win0_1.index t (1 : Fin 2) * 4096 + 1 * (j 1).val = win0_2.index t (1 : Fin 2) * 4096 + 1 * (j 1).val; omega
  show FloatOps.mulf (V m c main_v0 (((cfg0.win 0).blk t).view.emb j))
      (V m c main_v1 (((cfg0.win 1).blk t).view.emb (ix2 (0 : Fin 1) (⟨(j 1).val, hj1⟩ : Fin 4096))))
    = FloatOps.mulf (V m c main_v0 (((cfg0.win 2).blk t).view.emb j))
      (V m c main_v1 (ix2 (0 : Fin 1) (⟨((((cfg0.win 2).blk t).view.emb j) 1).val, ((((cfg0.win 2).blk t).view.emb j) 1).isLt⟩ : Fin 4096)))
  rw [h0, h1]

/-- An index of the output array is in point t's block iff each coordinate is in the block's range on its axis. -/
theorem mem_blk (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v2).slice (win0_2.rect t)).set ↔ _
  rw [View.set_slice_whole, Rect.mem_set_unit]
  exact Iff.rfl

/-- Row r of the output lies in the block of point r / 512, and that point writes its block back. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have ht : (i 0).val / 512 < cfg0.N := by show (i 0).val / 512 < grid0.N; rw [N_0]; omega
  obtain ⟨-, -, -, -, e20, e21⟩ := blocks_at ⟨(i 0).val / 512, ht⟩
  refine ⟨⟨(i 0).val / 512, ht⟩, flush0_2 _, ?_⟩
  rw [mem_blk]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e20]; show (i 0).val / 512 * 512 ≤ (i 0).val ∧ (i 0).val < (i 0).val / 512 * 512 + 512; omega
  | ⟨1, _⟩ =>
    show win0_2.index ⟨(i 0).val / 512, ht⟩ (1 : Fin 2) * 4096 ≤ (i 1).val
      ∧ (i 1).val < win0_2.index ⟨(i 0).val / 512, ht⟩ (1 : Fin 2) * 4096 + 4096
    rw [e21]; omega

/-- THE OUTPUT ARRAY after the run: the flattened input scaled, row by row, by the single row. -/
theorem region_final (c : Dev nD) : (dats m 0 c).arrAt 2 cfg0.N = scaledRows m c :=
  (dats m 0 c).arrAt_eq_of_cover 2 (scaledRows m c) (fun t _ => flushed_eq m c t) covered

end Cert.KernelIdeal.Scaled

end
-- ==== Proof.KernelValue.lean ====
/-
  The kernel's program computes the scaled cube.

  Around the region the program only re-lays arrays out.  Before it, the cube is flattened to 16384 rows and the
  vector becomes a single row: those are the two arrays the region finds.  The region leaves the flattened input
  scaled row by row by the single row.  After it, the 16384 rows are rebuilt into the cube.  Flatten, scale the rows,
  rebuild: that is scaling the cube's last axis by the vector, which is what the run ends holding in its result,
  the two arguments being left as they were.
-/
import proofs.«128821_j3478923510572_2_alg».proof.Proof.RegionArray
import Idealize.ShloMosaic.Lib.StableHlo.Run

set_option maxRecDepth 16384

noncomputable section

namespace Cert.KernelIdeal.Scaled

open Cert.KernelIdeal Cert.KernelIdeal.Gen Cert.RowScale
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The region finds the cube flattened to 16384 rows. -/
theorem found_rows (c : Dev nD) :
    (V m c main_v0 : S16384x4096.Idx → Elt F .f32)
      = shapeCast S16384x4096 (m ((c : Thread nD τ).loc main_arg0)) shapeCasts_S4x4096x4096_S16384x4096 := by
  show StableHlo.after hostOps0 (fun b => m (c, b)) (Proc.devRef .tc main_v0) = _
  after_results
  rfl

/-- The region finds the vector as a single row. -/
theorem found_row (c : Dev nD) :
    (V m c main_v1 : S1x4096.Idx → Elt F .f32)
      = shapeCast S1x4096 (m ((c : Thread nD τ).loc main_arg1)) shapeCasts_S4096_S1x4096 := by
  show StableHlo.after hostOps0 (fun b => m (c, b)) (Proc.devRef .tc main_v1) = _
  after_results
  rfl

/-- The result after the last line: the region's array rebuilt into the cube, which is the cube scaled along its
    last axis by the vector. -/
theorem result_eq (c : Dev nD) :
    Pipeline.afterTail₀ cfgs (dats m) 0 (V0 m) [hostOps1] c main_v3
      = cubeScale (FloatOps.mulf (F := F) (φ := .f32)) (m ((c : Thread nD τ).loc main_arg0)) (m ((c : Thread nD τ).loc main_arg1)) := by
  unfold Pipeline.afterTail₀
  show StableHlo.after hostOps1 _ (Proc.devRef .tc main_v3) = _
  after_results
  show shapeCast S4x4096x4096
      (Pipeline.withArrays spec0 c (V0 m c) (fun w => (dats m 0 c).arrAt w cfg0.N) (Proc.devRef .tc (Pipeline.arrRef spec0 2)))
      shapeCasts_S16384x4096_S4x4096x4096 = _
  rw [Pipeline.withArrays_arr spec0 launch0.win.arr_inj c _ _ 2, region_final]
  unfold scaledRows
  rw [found_rows, found_row]
  exact unflatten_rowsScale _ _ _ _ _ _

/-- THE RUN: every weakly fair execution ends with the result at the scaled cube and both arguments unchanged. -/
theorem run : θ_run defs (onTc (τ := τ) (main (F := F))) ⟨m, fun _ => 0, ρ⟩ (fun r => ∀ c : Dev nD,
      r.2.mem ((c.tc : Thread nD τ).loc main_v3)
        = cubeScale (FloatOps.mulf (F := F) (φ := .f32)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Scaled

end
-- ==== Proof.lean ====
/-
  Scaling the last axis of a cube by a vector: the kernel against its reference.

  Both programs take an array `x` of extents [4, 4096, 4096] and a vector `d` of extent [4096] and return the array
  whose entry (b, s, k) is `x (b, s, k) · d k`.

  The reference broadcasts `d` to the cube's shape and multiplies entry by entry.  The kernel flattens the cube to
  16384 rows of 4096 and `d` to a single row, sweeps the rows in 32 blocks of 512, multiplying each block entry by
  entry with the single row repeated over the block's rows, and rebuilds the cube from the 16384 rows.  Row-major
  flattening sends (b, s) to row `4096·b + s` and keeps k, the 32 blocks tile the 16384 rows, and in both programs
  the factor taken from the cube stands on the left of the product.  So the two results are the same product at
  every entry: no law of arithmetic is used, only where each entry is read, and the inputs' finiteness plays no
  part.  The equality therefore holds for the extended reals as for any other reading of the product.

  The three frames: the kernel's programs run to the end with their arguments unchanged by the generated frame
  proofs; the reference's is its generated run with the result forgotten.  The idealized kernel is the kernel's own
  text read over the extended reals (no operation was rewritten), so there is nothing to preserve.
-/
import proofs.«128821_j3478923510572_2_alg».proof.Defs
import proofs.«128821_j3478923510572_2_alg».proof.Proof.Gen.Kernel
import proofs.«128821_j3478923510572_2_alg».proof.Proof.Gen.Kernel.Frame
import proofs.«128821_j3478923510572_2_alg».proof.Proof.Gen.KernelIdeal
import proofs.«128821_j3478923510572_2_alg».proof.Proof.Gen.KernelIdeal.Frame
import proofs.«128821_j3478923510572_2_alg».proof.Proof.Gen.ReferenceIdeal
import proofs.«128821_j3478923510572_2_alg».proof.Proof.Gen.ReferenceIdeal.Run
import proofs.«128821_j3478923510572_2_alg».proof.Proof.Gen.ReferenceIdeal.Read
import proofs.«128821_j3478923510572_2_alg».proof.Proof.Gen.Pre_finite_inputs
import proofs.«128821_j3478923510572_2_alg».proof.Proof.RowScale
import proofs.«128821_j3478923510572_2_alg».proof.Proof.RefScale
import proofs.«128821_j3478923510572_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- From memories agreeing on `x` and `d`, both programs end with the cube scaled along its last axis by `d`:
    the kernel by its run through the flattened layout, the reference by its three operations read at an index. -/
theorem algebraic : Cert.algebraic_KernelIdeal_ReferenceIdeal := by
  intro m ρ m' ρ' _ hagree
  refine ⟨_, Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Scaled.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
